-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16384 : Shape := ⟨2, ![8192, 16384]⟩
abbrev S524288 : Shape := ⟨1, ![524288]⟩
abbrev S2097152 : Shape := ⟨1, ![2097152]⟩
abbrev S_ : Shape := ⟨0, ![]⟩

class Facts : Prop where
  bcast_S_S8192x16384 : S_.BroadcastsInDim S8192x16384 (![] : Fin 0 → Fin S8192x16384.rank)
  reducesTo_S8192x16384_S_d0_1 : S8192x16384.ReducesTo [0, 1] S_
  h_S_ : 0 < S_.numel
  reducesTo_S_S_d : S_.ReducesTo [] S_

variable [Facts]

def fn_part1 {F : FTy → Type} [FloatOps F] (main_v13 : IVec S_ 1) (main_v15 : IVec S_ 1) (main_c_5 : IVec S_ 1) : IVec S_ 1 :=
  let main_v16 : IVec S_ 1 := (fun x v => Host.reduce IntOp.andi x v reducesTo_S_S_d h_S_) main_v15 main_c_5
  let main_v17 : IVec S_ 1 := andi main_v13 main_v16
  main_v17

def fn {F : FTy → Type} [FloatOps F] (main_arg0 : FVec F S8192x16384 .f32) (main_arg1 : FVec F S8192x16384 .f32) (main_arg2 : FVec F S8192x16384 .f32) (main_arg3 : IVec S524288 32) (main_arg4 : IVec S524288 32) (main_arg5 : IVec S2097152 32) (main_arg6 : IVec S2097152 32) (main_arg7 : FVec F S_ .f32) : IVec S_ 1 :=
  let main_v0 : FVec F S8192x16384 .f32 := Host.absf main_arg0
  let main_cst : FVec F S_ .f32 := constant S_ .f32 0x7F800000#32
  let main_v1 : FVec F S8192x16384 .f32 := broadcastInDim S8192x16384 ![] bcast_S_S8192x16384 main_cst
  let main_v2 : IVec S8192x16384 1 := cmpf .olt main_v0 main_v1
  let main_c : IVec S_ 1 := constantI S_ 1 1#1
  let main_v3 : IVec S_ 1 := (fun x v => Host.reduce IntOp.andi x v reducesTo_S8192x16384_S_d0_1 h_S_) main_v2 main_c
  let main_v4 : FVec F S8192x16384 .f32 := Host.absf main_arg1
  let main_cst_0 : FVec F S_ .f32 := constant S_ .f32 0x7F800000#32
  let main_v5 : FVec F S8192x16384 .f32 := broadcastInDim S8192x16384 ![] bcast_S_S8192x16384 main_cst_0
  let main_v6 : IVec S8192x16384 1 := cmpf .olt main_v4 main_v5
  let main_c_1 : IVec S_ 1 := constantI S_ 1 1#1
  let main_v7 : IVec S_ 1 := (fun x v => Host.reduce IntOp.andi x v reducesTo_S8192x16384_S_d0_1 h_S_) main_v6 main_c_1
  let main_v8 : IVec S_ 1 := andi main_v3 main_v7
  let main_v9 : FVec F S8192x16384 .f32 := Host.absf main_arg2
  let main_cst_2 : FVec F S_ .f32 := constant S_ .f32 0x7F800000#32
  let main_v10 : FVec F S8192x16384 .f32 := broadcastInDim S8192x16384 ![] bcast_S_S8192x16384 main_cst_2
  let main_v11 : IVec S8192x16384 1 := cmpf .olt main_v9 main_v10
  let main_c_3 : IVec S_ 1 := constantI S_ 1 1#1
  let main_v12 : IVec S_ 1 := (fun x v => Host.reduce IntOp.andi x v reducesTo_S8192x16384_S_d0_1 h_S_) main_v11 main_c_3
  let main_v13 : IVec S_ 1 := andi main_v8 main_v12
  let main_v14 : FVec F S_ .f32 := Host.absf main_arg7
  let main_cst_4 : FVec F S_ .f32 := constant S_ .f32 0x7F800000#32
  let main_v15 : IVec S_ 1 := cmpf .olt main_v14 main_cst_4
  let main_c_5 : IVec S_ 1 := constantI S_ 1 1#1
  fn_part1 (F := F) main_v13 main_v15 main_c_5
-- ==== Kernel.lean ====
abbrev S8192x16384 : Shape := ⟨2, ![8192, 16384]⟩
abbrev S524288 : Shape := ⟨1, ![524288]⟩
abbrev S2097152 : Shape := ⟨1, ![2097152]⟩
abbrev S_ : Shape := ⟨0, ![]⟩
abbrev S512x2048 : Shape := ⟨2, ![512, 2048]⟩
abbrev S524288x1 : Shape := ⟨2, ![524288, 1]⟩
abbrev S524288x2 : Shape := ⟨2, ![524288, 2]⟩
abbrev S2097152x1 : Shape := ⟨2, ![2097152, 1]⟩
abbrev S2097152x2 : Shape := ⟨2, ![2097152, 2]⟩

abbrev nBuf : Space → Nat
  | .hbm => 58
  | .vmem => 6
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .hbm, ⟨2, _⟩ => ⟨S8192x16384, .f32⟩
  | .hbm, ⟨3, _⟩ => ⟨S524288, .i32⟩
  | .hbm, ⟨4, _⟩ => ⟨S524288, .i32⟩
  | .hbm, ⟨5, _⟩ => ⟨S2097152, .i32⟩
  | .hbm, ⟨6, _⟩ => ⟨S2097152, .i32⟩
  | .hbm, ⟨7, _⟩ => ⟨S_, .f32⟩
  | .hbm, ⟨8, _⟩ => ⟨S8192x16384, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x1, .i32⟩
  | .hbm, ⟨25, _⟩ => ⟨S524288x2, .i32⟩
  | .hbm, ⟨26, _⟩ => ⟨S524288, .f32⟩
  | .hbm, ⟨27, _⟩ => ⟨S_, .f32⟩
  | .hbm, ⟨28, _⟩ => ⟨S_, .f32⟩
  | .hbm, ⟨29, _⟩ => ⟨S_, .i32⟩
  | .hbm, ⟨30, _⟩ => ⟨S2097152, .i32⟩
  | .hbm, ⟨31, _⟩ => ⟨S2097152, .i1⟩
  | .hbm, ⟨32, _⟩ => ⟨S_, .i32⟩
  | .hbm, ⟨33, _⟩ => ⟨S2097152, .i32⟩
  | .hbm, ⟨34, _⟩ => ⟨S2097152, .i32⟩
  | .hbm, ⟨35, _⟩ => ⟨S2097152, .i32⟩
  | .hbm, ⟨36, _⟩ => ⟨S_, .i32⟩
  | .hbm, ⟨37, _⟩ => ⟨S2097152, .i32⟩
  | .hbm, ⟨38, _⟩ => ⟨S2097152, .i1⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S2097152, .i32⟩
  | .hbm, ⟨43, _⟩ => ⟨S2097152x1, .i32⟩
  | .hbm, ⟨44, _⟩ => ⟨S2097152x1, .i32⟩
  | .hbm, ⟨45, _⟩ => ⟨S2097152x2, .i32⟩
  | .hbm, ⟨46, _⟩ => ⟨S2097152, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S8192x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_cst_8 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S524288_S_d0 : S524288.ReducesTo [0] S_
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  reducesTo_S2097152_S_d0 : S2097152.ReducesTo [0] S_
  gather_S8192x16384_S524288x2_S524288_n_01_n_n_01_1_11_wf : GatherDims.WF S8192x16384 S524288x2 S524288 [] [0, 1] [] [0, 1] [] 1 ![1, 1]
  gather_S8192x16384_S2097152x2_S2097152_n_01_n_n_01_1_11_wf : GatherDims.WF S8192x16384 S2097152x2 S2097152 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x16384.size a
  hwx0_0 : ∀ i : grid0.Coords, EltTy.bits .f32 = 32 ∨ (Rect.block (s := S8192x16384) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x16384.size a
  hwx0_1 : ∀ i : grid0.Coords, EltTy.bits .f32 = 32 ∨ (Rect.block (s := S8192x16384) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x16384.size a
  hwx0_2 : ∀ i : grid0.Coords, EltTy.bits .f32 = 32 ∨ (Rect.block (s := S8192x16384) S512x2048.size (cc0_transform_2 i) (hinb0_2 i)).WholeWords (EltTy.packing .f32)

variable [Facts₀]

def gather_S8192x16384_S524288x2_S524288_n_01_n_n_01_1_11 : GatherDims S8192x16384 S524288x2 S524288 where
  offsetDims := []
  collapsedSliceDims := [0, 1]
  operandBatchingDims := []
  startIndicesBatchingDims := []
  startIndexMap := [0, 1]
  indexVectorDim := 1
  sliceSizes := ![1, 1]
  wf := gather_S8192x16384_S524288x2_S524288_n_01_n_n_01_1_11_wf
def gather_S8192x16384_S2097152x2_S2097152_n_01_n_n_01_1_11 : GatherDims S8192x16384 S2097152x2 S2097152 where
  offsetDims := []
  collapsedSliceDims := [0, 1]
  operandBatchingDims := []
  startIndicesBatchingDims := []
  startIndexMap := [0, 1]
  indexVectorDim := 1
  sliceSizes := ![1, 1]
  wf := gather_S8192x16384_S2097152x2_S2097152_n_01_n_n_01_1_11_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x16384 : Shape := ⟨2, ![8192, 16384]⟩
abbrev S524288 : Shape := ⟨1, ![524288]⟩
abbrev S2097152 : Shape := ⟨1, ![2097152]⟩
abbrev S_ : Shape := ⟨0, ![]⟩
abbrev S524288x1 : Shape := ⟨2, ![524288, 1]⟩
abbrev S524288x2 : Shape := ⟨2, ![524288, 2]⟩
abbrev S2097152x1 : Shape := ⟨2, ![2097152, 1]⟩
abbrev S2097152x2 : Shape := ⟨2, ![2097152, 2]⟩

abbrev nBuf : Space → Nat
  | .hbm => 60
  | .vmem => 0
  | .smem => 0
  | _ => 0

abbrev bufTy : (tb : Table) → Fin (tcTables nBuf tb) → BufTy
  | .hbm, ⟨0, _⟩ => ⟨S8192x16384, .f32⟩
  | .hbm, ⟨1, _⟩ => ⟨S8192x16384, .f32⟩
  | .hbm, ⟨2, _⟩ => ⟨S8192x16384, .f32⟩
  | .hbm, ⟨3, _⟩ => ⟨S524288, .i32⟩
  | .hbm, ⟨4, _⟩ => ⟨S524288, .i32⟩
  | .hbm, ⟨5, _⟩ => ⟨S2097152, .i32⟩
  | .hbm, ⟨6, _⟩ => ⟨S2097152, .i32⟩
  | .hbm, ⟨7, _⟩ => ⟨S_, .f32⟩
  | .hbm, ⟨8, _⟩ => ⟨S8192x16384, .f32⟩
  | .hbm, ⟨9, _⟩ => ⟨S_, .i32⟩
  | .hbm, ⟨10, _⟩ => ⟨S524288, .i32⟩
  | .hbm, ⟨11, _⟩ => ⟨S524288, .i1⟩
  | .hbm, ⟨12, _⟩ => ⟨S_, .i32⟩
  | .hbm, ⟨13, _⟩ => ⟨S524288, .i32⟩
  | .hbm, ⟨14, _⟩ => ⟨S524288, .i32⟩
  | .hbm, ⟨15, _⟩ => ⟨S524288, .i32⟩
  | .hbm, ⟨16, _⟩ => ⟨S_, .i32⟩
  | .hbm, ⟨17, _⟩ => ⟨S524288, .i32⟩
  | .hbm, ⟨18, _⟩ => ⟨S524288, .i1⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288, .i32⟩
  | .hbm, ⟨23, _⟩ => ⟨S524288x1, .i32⟩
  | .hbm, ⟨24, _⟩ => ⟨S524288x1, .i32⟩
  | .hbm, ⟨25, _⟩ => ⟨S524288x2, .i32⟩
  | .hbm, ⟨26, _⟩ => ⟨S524288, .f32⟩
  | .hbm, ⟨27, _⟩ => ⟨S524288, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S2097152, .i32⟩
  | .hbm, ⟨32, _⟩ => ⟨S2097152, .i1⟩
  | .hbm, ⟨33, _⟩ => ⟨S_, .i32⟩
  | .hbm, ⟨34, _⟩ => ⟨S2097152, .i32⟩
  | .hbm, ⟨35, _⟩ => ⟨S2097152, .i32⟩
  | .hbm, ⟨36, _⟩ => ⟨S2097152, .i32⟩
  | .hbm, ⟨37, _⟩ => ⟨S_, .i32⟩
  | .hbm, ⟨38, _⟩ => ⟨S2097152, .i32⟩
  | .hbm, ⟨39, _⟩ => ⟨S2097152, .i1⟩
  | .hbm, ⟨40, _⟩ => ⟨S_, .i32⟩
  | .hbm, ⟨41, _⟩ => ⟨S2097152, .i32⟩
  | .hbm, ⟨42, _⟩ => ⟨S2097152, .i32⟩
  | .hbm, ⟨43, _⟩ => ⟨S2097152, .i32⟩
  | .hbm, ⟨44, _⟩ => ⟨S2097152x1, .i32⟩
  | .hbm, ⟨45, _⟩ => ⟨S2097152x1, .i32⟩
  | .hbm, ⟨46, _⟩ => ⟨S2097152x2, .i32⟩
  | .hbm, ⟨47, _⟩ => ⟨S2097152, .f32⟩
  | .hbm, ⟨48, _⟩ => ⟨S2097152, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S8192x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_c_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S524288_S_d0 : S524288.ReducesTo [0] S_
  h_S_ : 0 < S_.numel
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x2_d1 : Shape.Concatenates [S2097152x1, S2097152x1] S2097152x2 1
  reducesTo_S2097152_S_d0 : S2097152.ReducesTo [0] S_
  gather_S8192x16384_S524288x2_S524288_n_01_n_n_01_1_11_wf : GatherDims.WF S8192x16384 S524288x2 S524288 [] [0, 1] [] [0, 1] [] 1 ![1, 1]
  gather_S8192x16384_S2097152x2_S2097152_n_01_n_n_01_1_11_wf : GatherDims.WF S8192x16384 S2097152x2 S2097152 [] [0, 1] [] [0, 1] [] 1 ![1, 1]

variable [Facts₀]

def gather_S8192x16384_S524288x2_S524288_n_01_n_n_01_1_11 : GatherDims S8192x16384 S524288x2 S524288 where
  offsetDims := []
  collapsedSliceDims := [0, 1]
  operandBatchingDims := []
  startIndicesBatchingDims := []
  startIndexMap := [0, 1]
  indexVectorDim := 1
  sliceSizes := ![1, 1]
  wf := gather_S8192x16384_S524288x2_S524288_n_01_n_n_01_1_11_wf
def gather_S8192x16384_S2097152x2_S2097152_n_01_n_n_01_1_11 : GatherDims S8192x16384 S2097152x2 S2097152 where
  offsetDims := []
  collapsedSliceDims := [0, 1]
  operandBatchingDims := []
  startIndicesBatchingDims := []
  startIndexMap := [0, 1]
  indexVectorDim := 1
  sliceSizes := ![1, 1]
  wf := gather_S8192x16384_S2097152x2_S2097152_n_01_n_n_01_1_11_wf

class Facts : Prop extends Facts₀ where

variable [Facts]
-- ==== Proof.Dense.lean ====
/-
  The dense pass. The kernel's one region walks a 16 × 8 grid; at point (p, q) it is handed the 512 × 2048 blocks
  of its two operands whose top-left corner is (512 p, 2048 q), subtracts them entry by entry, multiplies the
  difference by itself, and writes the product back as the block of the result with the same corner. The blocks
  are disjoint and fill the 8192 × 16384 array, so after the region the result array is, entry by entry,
  (a − b) · (a − b) of the two operand arrays: `dense`.
-/
import proofs.«114608_j52029233824478_1_alg».proof.Proof.Gen.KernelIdeal.Frame
import Idealize.ShloMosaic.Lib.Pipeline.Value

noncomputable section

namespace Cert.KernelIdeal.Dense

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The squared difference of two arrays, entry by entry: (a − b) · (a − b). -/
def sqDiff (a b : S8192x16384.Idx → Elt F .f32) : S8192x16384.Idx → Elt F .f32 :=
  fun i => FloatOps.mulf (FloatOps.subf (a i) (b i)) (FloatOps.subf (a i) (b i))

/-- The body's loads and its store all start at the block's corner. -/
theorem corner : (![0, 0] : Fin 2 → Nat) = fun _ => 0 := funext fun a => by fin_cases a <;> rfl

/-- What the body stores is the squared difference of the two blocks it loaded. -/
theorem stored_eq (x0 x1 : Vec F S512x2048 .f32) : k0_pay1 x0 x1 = mulf (subf x0 x1) (subf x0 x1) := rfl

/-- At every grid point the three windows sit on the same block: both operands' block indices are the result's,
    which range over 16 row blocks and 8 column blocks. -/
theorem same_block : ∀ t : Fin cfg0.N,
      win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15
    ∧ win0_2.index t (1 : Fin 2) ≤ 7 :=
  (by decide +kernel : ∀ t : Fin grid0.N, _)

/-- Every one of the 16 × 8 blocks of the result is some grid point's. -/
theorem every_block : ∀ (p : Fin 16) (q : Fin 8), ∃ t : Fin cfg0.N, win0_2.index t = ![p.val, q.val] :=
  (by decide +kernel : ∀ (p : Fin 16) (q : Fin 8), ∃ t : Fin grid0.N, win0_2.index t = ![p.val, q.val])

/-- What grid point `t` writes back is block `t` of the squared difference of the operand arrays. -/
theorem written_eq (c : Dev nD) (t : Fin cfg0.N) :
    (dats m 0 c).flushed 2 t = ((cfg0.win 2).blk t).view.read (Elt F) (sqDiff (V m c main_arg0) (V m c main_arg1)) := by
  show (cfg0.win 2).cut (grid0.coords t) ((dats m 0 c).after 2 t) = _
  rw [after0_2]
  unfold out0_2
  rw [View.canon_unit_zero corner]
  simp only [View.ld_unit_zero (S := S512x2048) corner]
  rw [stored_eq]
  obtain ⟨e0, e1, e2, e3, -, -⟩ := same_block t
  funext j
  show FloatOps.mulf (FloatOps.subf (V m c main_arg0 (((cfg0.win 0).blk t).view.emb j)) (V m c main_arg1 (((cfg0.win 1).blk t).view.emb j)))
        (FloatOps.subf (V m c main_arg0 (((cfg0.win 0).blk t).view.emb j)) (V m c main_arg1 (((cfg0.win 1).blk t).view.emb j)))
      = FloatOps.mulf (FloatOps.subf (V m c main_arg0 (((cfg0.win 2).blk t).view.emb j)) (V m c main_arg1 (((cfg0.win 2).blk t).view.emb j)))
        (FloatOps.subf (V m c main_arg0 (((cfg0.win 2).blk t).view.emb j)) (V m c main_arg1 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 2048 + 1 * (j 1).val = win0_2.index t (1 : Fin 2) * 2048 + 1 * (j 1).val; omega
  have h1 : ((cfg0.win 1).blk t).view.emb j = ((cfg0.win 2).blk t).view.emb j := by
    funext a; apply Fin.ext
    match a with
    | ⟨0, _⟩ => show win0_1.index t (0 : Fin 2) * 512 + 1 * (j 0).val = win0_2.index t (0 : Fin 2) * 512 + 1 * (j 0).val; omega
    | ⟨1, _⟩ => show win0_1.index t (1 : Fin 2) * 2048 + 1 * (j 1).val = win0_2.index t (1 : Fin 2) * 2048 + 1 * (j 1).val; omega
  rw [h0, h1]

/-- An entry of the result array lies in point `t`'s block when each of its coordinates lies in the block's range. -/
theorem mem_block (t : Fin cfg0.N) (i : S8192x16384.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Every entry (r, s) of the result array is written by some grid point: the one on block (r / 512, s / 2048). -/
theorem covered (i : S8192x16384.Idx) :
    ∃ t : Fin cfg0.N, (cfg0.win 2).flush t = true ∧ i ∈ ((cfg0.win 2).blk t).view.set := by
  have hi0 : (i 0).val < 8192 := (i 0).isLt
  have hi1 : (i 1).val < 16384 := (i 1).isLt
  obtain ⟨t, ht⟩ := every_block ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- The result array after the region: the squared difference of the two operand arrays as launched. -/
theorem dense (c : Dev nD) :
    (dats m 0 c).arrAt 2 cfg0.N
      = sqDiff (m ((c : Thread nD τ).loc main_arg0)) (m ((c : Thread nD τ).loc main_arg1)) :=
  (dats m 0 c).arrAt_eq_of_cover 2 (sqDiff (V m c main_arg0) (V m c main_arg1)) (fun t _ => written_eq m c t) covered

end Cert.KernelIdeal.Dense

end
-- ==== Proof.Loss.lean ====
/-
  After the dense pass the program gathers, from the dense array, the entries at the positive pairs and at the
  negative pairs (an index below zero counts from the end of its axis), sums each family, and returns
      (Σ positives) · ((1 − α) / 2) + (Σ negatives) · (α / 2).
  `lossOf` is that tail as one function of the dense array, the four index vectors and α; `after_tail` says the
  lines after the region compute it from whatever the core's buffers hold, and `run` is the kernel's whole run:
  the result is `lossOf` of the squared difference of the first two arguments, and every argument ends unchanged.
-/
import proofs.«114608_j52029233824478_1_alg».proof.Proof.Dense
import Idealize.ShloMosaic.Lib.StableHlo.Run

noncomputable section

namespace Cert.KernelIdeal.Loss

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-- The start indices of the gather at the 524288 positive pairs: row index `x k` (plus 8192 when negative) beside
    column index `y k` (plus 16384 when negative). -/
def posPairs (x y : IVec S524288 32) : IVec S524288x2 32 :=
  concatenate S524288x2 1
    [⟨S524288x1, broadcastInDim S524288x1 ![0] bcast_S524288_S524288x1_0
        (select (cmpi .slt x (broadcastInDim S524288 ![] bcast_S_S524288 (constantI S_ 32 0#32)))
          (addi x (broadcastInDim S524288 ![] bcast_S_S524288 (constantI S_ 32 8192#32))) x)⟩,
     ⟨S524288x1, broadcastInDim S524288x1 ![0] bcast_S524288_S524288x1_0
        (select (cmpi .slt y (broadcastInDim S524288 ![] bcast_S_S524288 (constantI S_ 32 0#32)))
          (addi y (broadcastInDim S524288 ![] bcast_S_S524288 (constantI S_ 32 16384#32))) y)⟩]
    concatenates_S524288x1_S524288x1_S524288x2_d1

/-- The same for the 2097152 negative pairs. -/
def negPairs (x y : IVec S2097152 32) : IVec S2097152x2 32 :=
  concatenate S2097152x2 1
    [⟨S2097152x1, broadcastInDim S2097152x1 ![0] bcast_S2097152_S2097152x1_0
        (select (cmpi .slt x (broadcastInDim S2097152 ![] bcast_S_S2097152 (constantI S_ 32 0#32)))
          (addi x (broadcastInDim S2097152 ![] bcast_S_S2097152 (constantI S_ 32 8192#32))) x)⟩,
     ⟨S2097152x1, broadcastInDim S2097152x1 ![0] bcast_S2097152_S2097152x1_0
        (select (cmpi .slt y (broadcastInDim S2097152 ![] bcast_S_S2097152 (constantI S_ 32 0#32)))
          (addi y (broadcastInDim S2097152 ![] bcast_S_S2097152 (constantI S_ 32 16384#32))) y)⟩]
    concatenates_S2097152x1_S2097152x1_S2097152x2_d1

/-- The weighted loss from a dense array `se` of per-entry errors:
    (Σ_k se[positive pair k]) · ((1 − α) / 2) + (Σ_k se[negative pair k]) · (α / 2). -/
def lossOf (se : FVec F S8192x16384 .f32) (px py : IVec S524288 32) (nx ny : IVec S2097152 32) (α : FVec F S_ .f32) :
    FVec F S_ .f32 :=
  addf
    (mulf
      (Host.reduceAdd (Host.gather gather_S8192x16384_S524288x2_S524288_n_01_n_n_01_1_11 se (posPairs px py))
        (constant (F := F) S_ .f32 0x00000000#32) reducesTo_S524288_S_d0 h_S_)
      (Host.divf (subf (constant (F := F) S_ .f32 0x3F800000#32) α) (constant (F := F) S_ .f32 0x40000000#32)))
    (mulf
      (Host.reduceAdd (Host.gather gather_S8192x16384_S2097152x2_S2097152_n_01_n_n_01_1_11 se (negPairs nx ny))
        (constant (F := F) S_ .f32 0x00000000#32) reducesTo_S2097152_S_d0 h_S_)
      (Host.divf α (constant (F := F) S_ .f32 0x40000000#32)))

set_option maxRecDepth 8192 in
set_option maxHeartbeats 2000000 in
/-- The lines after the region, started from any contents `W` of the core's buffers, leave in the result buffer the
    weighted loss of what `W` holds in the dense array's buffer, the four index buffers and α's. -/
theorem after_tail (W : Valuation τ sig (Elt F)) :
    StableHlo.after hostOps1 W (Proc.devRef .tc main_v36)
      = lossOf (W (Proc.devRef .tc main_v0)) (W (Proc.devRef .tc main_arg3)) (W (Proc.devRef .tc main_arg4))
          (W (Proc.devRef .tc main_arg5)) (W (Proc.devRef .tc main_arg6)) (W (Proc.devRef .tc main_arg7)) := by
  after_results_simp
  rfl

variable (m : (ℓ : Loc nD τ sig) → Buf (Elt F) ℓ) (ρ : Dev nD → PrngReg)

/-- The result the frame run states — the lines after the region run from the region's arrays and the untouched
    rest — is the weighted loss of the dense array and the arguments as launched. -/
theorem result_eq (c : Dev nD) :
    Pipeline.afterTail₀ cfgs (dats m) 0 (V0 m) [hostOps1] c main_v36
      = lossOf ((dats m 0 c).arrAt 2 cfg0.N) (m ((c : Thread nD τ).loc main_arg3)) (m ((c : Thread nD τ).loc main_arg4))
          (m ((c : Thread nD τ).loc main_arg5)) (m ((c : Thread nD τ).loc main_arg6)) (m ((c : Thread nD τ).loc main_arg7)) := by
  unfold Pipeline.afterTail₀
  simp only [List.flatten_cons, List.flatten_nil, List.append_nil]
  rw [after_tail]
  refine congr (congr (congr (congr (congr (congrArg (lossOf (F := F)) ?_) ?_) ?_) ?_) ?_) ?_
  · exact Pipeline.withArrays_arr spec0 launch0.win.arr_inj c _ _ 2
  · exact (Pipeline.withArrays_of_ne _ c (V0 m c) _ main_arg3 (by exact (by decide : ∀ w, Pipeline.arrRef spec0 w ≠ main_arg3))).trans (V_main_arg3 m c)
  · exact (Pipeline.withArrays_of_ne _ c (V0 m c) _ main_arg4 (by exact (by decide : ∀ w, Pipeline.arrRef spec0 w ≠ main_arg4))).trans (V_main_arg4 m c)
  · exact (Pipeline.withArrays_of_ne _ c (V0 m c) _ main_arg5 (by exact (by decide : ∀ w, Pipeline.arrRef spec0 w ≠ main_arg5))).trans (V_main_arg5 m c)
  · exact (Pipeline.withArrays_of_ne _ c (V0 m c) _ main_arg6 (by exact (by decide : ∀ w, Pipeline.arrRef spec0 w ≠ main_arg6))).trans (V_main_arg6 m c)
  · exact (Pipeline.withArrays_of_ne _ c (V0 m c) _ main_arg7 (by exact (by decide : ∀ w, Pipeline.arrRef spec0 w ≠ main_arg7))).trans (V_main_arg7 m c)

/-- The kernel's run: every weakly fair execution terminates with the result at the weighted loss of the squared
    difference of the first two arguments, and with every argument as launched. -/
theorem run : θ_run defs (onTc (τ := τ) (main (F := F))) ⟨m, fun _ => 0, ρ⟩ fun r => ∀ c : Dev nD,
      r.2.mem ((c : Thread nD τ).loc main_v36)
        = lossOf (Dense.sqDiff (m ((c : Thread nD τ).loc main_arg0)) (m ((c : Thread nD τ).loc main_arg1)))
            (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c =>
    ⟨((h c).2 main_v36 (Pipeline.mem_restRefs_of main_v36 (by decide) (by decide))).trans
        ((result_eq m c).trans (by rw [Dense.dense])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.Loss

end
-- ==== Proof.Reference.lean ====
/-
  The reference subtracts the two arrays densely, gathers the DIFFERENCES at the positive and at the negative
  pairs, squares what it gathered, and then sums and weighs exactly as the kernel's tail does. A gather only
  re-indexes — entry k of the gathered vector is the operand's entry at an index that the start indices alone
  determine, whatever the operand holds — so the product of two gathers at the same pairs is the gather of the
  product. Squaring after
  the gather is therefore gathering the dense squares, and the reference's result is the kernel's weighted loss
  of the dense squared difference, over every extended real: no finiteness is used.
-/
import proofs.«114608_j52029233824478_1_alg».proof.Proof.Loss
import proofs.«114608_j52029233824478_1_alg».proof.Proof.Gen.ReferenceIdeal.Run

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]

/-- The entrywise product of two gathers at the same start indices is the gather of the entrywise product: both
    are, at entry k, the product of the two operands' entries at the one operand index the start indices give for k. -/
theorem gather_mulf {s si t : Shape} {w : Nat} {φ : FTy} (d : GatherDims s si t) (x y : FVec F s φ) (idx : IVec si w) :
    mulf (Host.gather d x idx) (Host.gather d y idx) = Host.gather d (mulf x y) idx := rfl

set_option maxRecDepth 8192 in
/-- The reference's result is the weighted loss of the dense squared difference of its first two arguments. -/
theorem result_eq (m : (ℓ : Loc nD τ sig) → Buf (Elt F) ℓ) (c : Dev nD) :
    res_main_v38 m c
      = Cert.KernelIdeal.Loss.lossOf (Cert.KernelIdeal.Dense.sqDiff (m ((c.tc : Thread nD τ).loc main_arg0)) (m ((c.tc : Thread nD τ).loc main_arg1)))
          (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold res_main_v38
  rw [gather_mulf, gather_mulf]
  rfl

end Cert.ReferenceIdeal.RefValue

end
-- ==== Proof.lean ====
/-
  The kernel computes a weighted sum of squared errors at two families of index pairs: a dense pass squares the
  difference of two 8192 × 16384 arrays block by block, and the lines after it gather the squares at the positive
  and at the negative pairs, sum each family and combine the sums with weights (1 − α) / 2 and α / 2. The
  reference gathers the differences first and squares afterwards. Since a gather only re-indexes, the two orders
  give the same vector entry by entry, over every extended real; the rest of the two programs is the same
  arithmetic on the same literals. So both end with the same scalar (`algebraic`), each runs to the end leaving
  its arguments as launched (the three frames), and the idealized kernel is the kernel's own text read over the
  extended reals, with nothing rewritten (`preserves`).
-/
import proofs.«114608_j52029233824478_1_alg».proof.Defs
import proofs.«114608_j52029233824478_1_alg».proof.Proof.Gen.Kernel
import proofs.«114608_j52029233824478_1_alg».proof.Proof.Gen.Kernel.Skeleton
import proofs.«114608_j52029233824478_1_alg».proof.Proof.Gen.Kernel.Launch
import proofs.«114608_j52029233824478_1_alg».proof.Proof.Gen.Kernel.Points
import proofs.«114608_j52029233824478_1_alg».proof.Proof.Gen.Kernel.Frame
import proofs.«114608_j52029233824478_1_alg».proof.Proof.Gen.KernelIdeal
import proofs.«114608_j52029233824478_1_alg».proof.Proof.Gen.KernelIdeal.Skeleton
import proofs.«114608_j52029233824478_1_alg».proof.Proof.Gen.KernelIdeal.Launch
import proofs.«114608_j52029233824478_1_alg».proof.Proof.Gen.KernelIdeal.Points
import proofs.«114608_j52029233824478_1_alg».proof.Proof.Gen.KernelIdeal.Frame
import proofs.«114608_j52029233824478_1_alg».proof.Proof.Gen.ReferenceIdeal
import proofs.«114608_j52029233824478_1_alg».proof.Proof.Gen.ReferenceIdeal.Run
import proofs.«114608_j52029233824478_1_alg».proof.Proof.Gen.Pre_finite_inputs
import proofs.«114608_j52029233824478_1_alg».proof.Proof.Dense
import proofs.«114608_j52029233824478_1_alg».proof.Proof.Loss
import proofs.«114608_j52029233824478_1_alg».proof.Proof.Reference
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories that agree on the arguments both programs end with the weighted loss of the dense squared
    difference of the first two arguments: the kernel by its run, the reference because squaring what was
    gathered is gathering the squares. -/
theorem algebraic : Cert.algebraic_KernelIdeal_ReferenceIdeal := by
  intro m ρ m' ρ' _ hagree
  refine ⟨_, Cert.KernelIdeal.Loss.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.2.1, (hagree c).2.2.2.2.1,
    (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
